-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v31) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S512x4096 : Shape := ⟨2, ![512, 4096]⟩
abbrev S4096 : Shape := ⟨1, ![4096]⟩
abbrev S12288x4096 : Shape := ⟨2, ![12288, 4096]⟩
abbrev S32x512x128 : Shape := ⟨3, ![32, 512, 128]⟩
abbrev S32x4096x128 : Shape := ⟨3, ![32, 4096, 128]⟩
abbrev S_ : Shape := ⟨0, ![]⟩

class Facts : Prop where
  bcast_S_S512x4096 : S_.BroadcastsInDim S512x4096 (![] : Fin 0 → Fin S512x4096.rank)
  reducesTo_S512x4096_S_d0_1 : S512x4096.ReducesTo [0, 1] S_
  h_S_ : 0 < S_.numel
  bcast_S_S4096 : S_.BroadcastsInDim S4096 (![] : Fin 0 → Fin S4096.rank)
  reducesTo_S4096_S_d0 : S4096.ReducesTo [0] S_
  bcast_S_S12288x4096 : S_.BroadcastsInDim S12288x4096 (![] : Fin 0 → Fin S12288x4096.rank)
  reducesTo_S12288x4096_S_d0_1 : S12288x4096.ReducesTo [0, 1] S_
  bcast_S_S32x512x128 : S_.BroadcastsInDim S32x512x128 (![] : Fin 0 → Fin S32x512x128.rank)
  reducesTo_S32x512x128_S_d0_1_2 : S32x512x128.ReducesTo [0, 1, 2] S_
  bcast_S_S32x4096x128 : S_.BroadcastsInDim S32x4096x128 (![] : Fin 0 → Fin S32x4096x128.rank)
  reducesTo_S32x4096x128_S_d0_1_2 : S32x4096x128.ReducesTo [0, 1, 2] S_

variable [Facts]

def fn_part1 {F : FTy → Type} [FloatOps F] (main_arg4 : FVec F S32x4096x128 .f32) (main_arg5 : FVec F S32x4096x128 .f32) (main_v13 : IVec S_ 1) (main_v16 : IVec S32x512x128 1) : IVec S_ 1 :=
  let main_c_5 : IVec S_ 1 := constantI S_ 1 1#1
  let main_v17 : IVec S_ 1 := (fun x v => Host.reduce IntOp.andi x v reducesTo_S32x512x128_S_d0_1_2 h_S_) main_v16 main_c_5
  let main_v18 : IVec S_ 1 := andi main_v13 main_v17
  let main_v19 : FVec F S32x4096x128 .f32 := Host.absf main_arg4
  let main_cst_6 : FVec F S_ .f32 := constant S_ .f32 0x7F800000#32
  let main_v20 : FVec F S32x4096x128 .f32 := broadcastInDim S32x4096x128 ![] bcast_S_S32x4096x128 main_cst_6
  let main_v21 : IVec S32x4096x128 1 := cmpf .olt main_v19 main_v20
  let main_c_7 : IVec S_ 1 := constantI S_ 1 1#1
  let main_v22 : IVec S_ 1 := (fun x v => Host.reduce IntOp.andi x v reducesTo_S32x4096x128_S_d0_1_2 h_S_) main_v21 main_c_7
  let main_v23 : IVec S_ 1 := andi main_v18 main_v22
  let main_v24 : FVec F S32x4096x128 .f32 := Host.absf main_arg5
  let main_cst_8 : FVec F S_ .f32 := constant S_ .f32 0x7F800000#32
  let main_v25 : FVec F S32x4096x128 .f32 := broadcastInDim S32x4096x128 ![] bcast_S_S32x4096x128 main_cst_8
  let main_v26 : IVec S32x4096x128 1 := cmpf .olt main_v24 main_v25
  let main_c_9 : IVec S_ 1 := constantI S_ 1 1#1
  let main_v27 : IVec S_ 1 := (fun x v => Host.reduce IntOp.andi x v reducesTo_S32x4096x128_S_d0_1_2 h_S_) main_v26 main_c_9
  let main_v28 : IVec S_ 1 := andi main_v23 main_v27
  main_v28

def fn {F : FTy → Type} [FloatOps F] (main_arg0 : FVec F S512x4096 .f32) (main_arg1 : FVec F S4096 .f32) (main_arg2 : FVec F S12288x4096 .f32) (main_arg3 : FVec F S32x512x128 .f32) (main_arg4 : FVec F S32x4096x128 .f32) (main_arg5 : FVec F S32x4096x128 .f32) : IVec S_ 1 :=
  let main_v0 : FVec F S512x4096 .f32 := Host.absf main_arg0
  let main_cst : FVec F S_ .f32 := constant S_ .f32 0x7F800000#32
  let main_v1 : FVec F S512x4096 .f32 := broadcastInDim S512x4096 ![] bcast_S_S512x4096 main_cst
  let main_v2 : IVec S512x4096 1 := cmpf .olt main_v0 main_v1
  let main_c : IVec S_ 1 := constantI S_ 1 1#1
  let main_v3 : IVec S_ 1 := (fun x v => Host.reduce IntOp.andi x v reducesTo_S512x4096_S_d0_1 h_S_) main_v2 main_c
  let main_v4 : FVec F S4096 .f32 := Host.absf main_arg1
  let main_cst_0 : FVec F S_ .f32 := constant S_ .f32 0x7F800000#32
  let main_v5 : FVec F S4096 .f32 := broadcastInDim S4096 ![] bcast_S_S4096 main_cst_0
  let main_v6 : IVec S4096 1 := cmpf .olt main_v4 main_v5
  let main_c_1 : IVec S_ 1 := constantI S_ 1 1#1
  let main_v7 : IVec S_ 1 := (fun x v => Host.reduce IntOp.andi x v reducesTo_S4096_S_d0 h_S_) main_v6 main_c_1
  let main_v8 : IVec S_ 1 := andi main_v3 main_v7
  let main_v9 : FVec F S12288x4096 .f32 := Host.absf main_arg2
  let main_cst_2 : FVec F S_ .f32 := constant S_ .f32 0x7F800000#32
  let main_v10 : FVec F S12288x4096 .f32 := broadcastInDim S12288x4096 ![] bcast_S_S12288x4096 main_cst_2
  let main_v11 : IVec S12288x4096 1 := cmpf .olt main_v9 main_v10
  let main_c_3 : IVec S_ 1 := constantI S_ 1 1#1
  let main_v12 : IVec S_ 1 := (fun x v => Host.reduce IntOp.andi x v reducesTo_S12288x4096_S_d0_1 h_S_) main_v11 main_c_3
  let main_v13 : IVec S_ 1 := andi main_v8 main_v12
  let main_v14 : FVec F S32x512x128 .f32 := Host.absf main_arg3
  let main_cst_4 : FVec F S_ .f32 := constant S_ .f32 0x7F800000#32
  let main_v15 : FVec F S32x512x128 .f32 := broadcastInDim S32x512x128 ![] bcast_S_S32x512x128 main_cst_4
  let main_v16 : IVec S32x512x128 1 := cmpf .olt main_v14 main_v15
  fn_part1 (F := F) main_arg4 main_arg5 main_v13 main_v16
-- ==== Kernel.lean ====
abbrev S512x4096 : Shape := ⟨2, ![512, 4096]⟩
abbrev S4096 : Shape := ⟨1, ![4096]⟩
abbrev S12288x4096 : Shape := ⟨2, ![12288, 4096]⟩
abbrev S32x512x128 : Shape := ⟨3, ![32, 512, 128]⟩
abbrev S32x4096x128 : Shape := ⟨3, ![32, 4096, 128]⟩
abbrev S1x512x128 : Shape := ⟨3, ![1, 512, 128]⟩
abbrev S1x4096x128 : Shape := ⟨3, ![1, 4096, 128]⟩
abbrev S512x128 : Shape := ⟨2, ![512, 128]⟩
abbrev S4096x128 : Shape := ⟨2, ![4096, 128]⟩
abbrev S512 : Shape := ⟨1, ![512]⟩
abbrev S512x1 : Shape := ⟨2, ![512, 1]⟩

abbrev nBuf : Space → Nat
  | .hbm => 7
  | .vmem => 8
  | .smem => 0
  | _ => 0

abbrev bufTy : (tb : Table) → Fin (tcTables nBuf tb) → BufTy
  | .hbm, ⟨0, _⟩ => ⟨S512x4096, .f32⟩
  | .hbm, ⟨1, _⟩ => ⟨S4096, .f32⟩
  | .hbm, ⟨2, _⟩ => ⟨S12288x4096, .f32⟩
  | .hbm, ⟨3, _⟩ => ⟨S32x512x128, .f32⟩
  | .hbm, ⟨4, _⟩ => ⟨S32x4096x128, .f32⟩
  | .hbm, ⟨5, _⟩ => ⟨S32x4096x128, .f32⟩
  | .hbm, ⟨6, _⟩ => ⟨S512x4096, .f32⟩
  | .local _ .vmem, ⟨0, _⟩ => ⟨S1x512x128, .f32⟩
  | .local _ .vmem, ⟨1, _⟩ => ⟨S1x512x128, .f32⟩
  | .local _ .vmem, ⟨2, _⟩ => ⟨S1x4096x128, .f32⟩
  | .local _ .vmem, ⟨3, _⟩ => ⟨S1x4096x128, .f32⟩
  | .local _ .vmem, ⟨4, _⟩ => ⟨S1x4096x128, .f32⟩
  | .local _ .vmem, ⟨5, _⟩ => ⟨S1x4096x128, .f32⟩
  | .local _ .vmem, ⟨6, _⟩ => ⟨S512x128, .f32⟩
  | .local _ .vmem, ⟨7, _⟩ => ⟨S512x128, .f32⟩
  | _, _ => ⟨S512x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨1, ![32], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S1x512x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x4096x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x4096x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  inb_S1x512x128_S1x512x128_0_0_0 : ∀ a, (![0, 0, 0] : Fin 3 → Nat) a + S1x512x128.size a ≤ S1x512x128.size a
  h_S1x512x128 : 0 < S1x512x128.numel
  shapeCasts_S1x512x128_S512x128 : S1x512x128.ShapeCasts S512x128
  bitsLt_bf16_f32 : FTy.bits .bf16 < FTy.bits .f32
  inb_S1x4096x128_S1x4096x128_0_0_0 : ∀ a, (![0, 0, 0] : Fin 3 → Nat) a + S1x4096x128.size a ≤ S1x4096x128.size a
  h_S1x4096x128 : 0 < S1x4096x128.numel
  shapeCasts_S1x4096x128_S4096x128 : S1x4096x128.ShapeCasts S4096x128
  reduces_S512x4096_S512 : S512x4096.Reduces [1] S512
  shapeCasts_S512_S512x1 : S512.ShapeCasts S512x1
  broadcasts_S512x1_S512x4096 : S512x1.Broadcasts S512x4096
  broadcasts_S512x1_S512x128 : S512x1.Broadcasts S512x128
  inb_S512x128_S512x128_0_0 : ∀ a, (![0, 0] : Fin 2 → Nat) a + S512x128.size a ≤ S512x128.size a
  h_S512x128 : 0 < S512x128.numel
  dot_S512x128_S4096x128_S512x4096_1_1_0_0_n_n_wf : DotDims.WF S512x128 S4096x128 S512x4096 [1] [1] [0] [0] [] []
  dot_S512x4096_S4096x128_S512x128_1_0_0_1_n_n_wf : DotDims.WF S512x4096 S4096x128 S512x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x512x128.size a ≤ S32x512x128.size a
  hwx0_0 : ∀ i : grid0.Coords, EltTy.bits .f32 = 32 ∨ (Rect.block (s := S32x512x128) S1x512x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x4096x128.size a ≤ S32x4096x128.size a
  hwx0_1 : ∀ i : grid0.Coords, EltTy.bits .f32 = 32 ∨ (Rect.block (s := S32x4096x128) S1x4096x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x4096x128.size a ≤ S32x4096x128.size a
  hwx0_2 : ∀ i : grid0.Coords, EltTy.bits .f32 = 32 ∨ (Rect.block (s := S32x4096x128) S1x4096x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S512x128.size a ≤ S512x4096.size a
  hwx0_3 : ∀ i : grid0.Coords, EltTy.bits .f32 = 32 ∨ (Rect.block (s := S512x4096) S512x128.size (cc0_transform_3 i) (hinb0_3 i)).WholeWords (EltTy.packing .f32)

variable [Facts₀]

def dot_S512x128_S4096x128_S512x4096_1_1_0_0_n_n : DotDims S512x128 S4096x128 S512x4096 where
  lhsContracting := [1]
  rhsContracting := [1]
  lhsNonContracting := [0]
  rhsNonContracting := [0]
  lhsBatch := []
  rhsBatch := []
  wf := dot_S512x128_S4096x128_S512x4096_1_1_0_0_n_n_wf
def dot_S512x4096_S4096x128_S512x128_1_0_0_1_n_n : DotDims S512x4096 S4096x128 S512x128 where
  lhsContracting := [1]
  rhsContracting := [0]
  lhsNonContracting := [0]
  rhsNonContracting := [1]
  lhsBatch := []
  rhsBatch := []
  wf := dot_S512x4096_S4096x128_S512x128_1_0_0_1_n_n_wf

abbrev win0_0 : Pipeline.Window sig grid0 :=
  Pipeline.Window.ofSpec (Memref.whole main_arg3) S1x512x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg4) S1x4096x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg5) S1x4096x128.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v0) S512x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S512x4096 : Shape := ⟨2, ![512, 4096]⟩
abbrev S4096 : Shape := ⟨1, ![4096]⟩
abbrev S12288x4096 : Shape := ⟨2, ![12288, 4096]⟩
abbrev S32x512x128 : Shape := ⟨3, ![32, 512, 128]⟩
abbrev S32x4096x128 : Shape := ⟨3, ![32, 4096, 128]⟩
abbrev S_ : Shape := ⟨0, ![]⟩
abbrev S512 : Shape := ⟨1, ![512]⟩
abbrev S512x1 : Shape := ⟨2, ![512, 1]⟩
abbrev S1x4096 : Shape := ⟨2, ![1, 4096]⟩
abbrev S4096x12288 : Shape := ⟨2, ![4096, 12288]⟩
abbrev S512x12288 : Shape := ⟨2, ![512, 12288]⟩
abbrev S32x512x4096 : Shape := ⟨3, ![32, 512, 4096]⟩
abbrev S32x512 : Shape := ⟨2, ![32, 512]⟩
abbrev S32x512x1 : Shape := ⟨3, ![32, 512, 1]⟩
abbrev S512x32x128 : Shape := ⟨3, ![512, 32, 128]⟩

abbrev nBuf : Space → Nat
  | .hbm => 45
  | .vmem => 0
  | .smem => 0
  | _ => 0

abbrev bufTy : (tb : Table) → Fin (tcTables nBuf tb) → BufTy
  | .hbm, ⟨0, _⟩ => ⟨S512x4096, .f32⟩
  | .hbm, ⟨1, _⟩ => ⟨S4096, .f32⟩
  | .hbm, ⟨2, _⟩ => ⟨S12288x4096, .f32⟩
  | .hbm, ⟨3, _⟩ => ⟨S32x512x128, .f32⟩
  | .hbm, ⟨4, _⟩ => ⟨S32x4096x128, .f32⟩
  | .hbm, ⟨5, _⟩ => ⟨S32x4096x128, .f32⟩
  | .hbm, ⟨6, _⟩ => ⟨S512x4096, .f32⟩
  | .hbm, ⟨7, _⟩ => ⟨S_, .f32⟩
  | .hbm, ⟨8, _⟩ => ⟨S512, .f32⟩
  | .hbm, ⟨9, _⟩ => ⟨S512x1, .f32⟩
  | .hbm, ⟨10, _⟩ => ⟨S_, .f32⟩
  | .hbm, ⟨11, _⟩ => ⟨S512x1, .f32⟩
  | .hbm, ⟨12, _⟩ => ⟨S512x1, .f32⟩
  | .hbm, ⟨13, _⟩ => ⟨S_, .f32⟩
  | .hbm, ⟨14, _⟩ => ⟨S512x1, .f32⟩
  | .hbm, ⟨15, _⟩ => ⟨S512x1, .f32⟩
  | .hbm, ⟨16, _⟩ => ⟨S512x1, .f32⟩
  | .hbm, ⟨17, _⟩ => ⟨S512x4096, .f32⟩
  | .hbm, ⟨18, _⟩ => ⟨S512x4096, .f32⟩
  | .hbm, ⟨19, _⟩ => ⟨S1x4096, .f32⟩
  | .hbm, ⟨20, _⟩ => ⟨S512x4096, .f32⟩
  | .hbm, ⟨21, _⟩ => ⟨S512x4096, .f32⟩
  | .hbm, ⟨22, _⟩ => ⟨S4096x12288, .f32⟩
  | .hbm, ⟨23, _⟩ => ⟨S512x12288, .f32⟩
  | .hbm, ⟨24, _⟩ => ⟨S32x512x4096, .f32⟩
  | .hbm, ⟨25, _⟩ => ⟨S_, .f32⟩
  | .hbm, ⟨26, _⟩ => ⟨S32x512x4096, .f32⟩
  | .hbm, ⟨27, _⟩ => ⟨S32x512x4096, .f32⟩
  | .hbm, ⟨28, _⟩ => ⟨S_, .f32⟩
  | .hbm, ⟨29, _⟩ => ⟨S32x512, .f32⟩
  | .hbm, ⟨30, _⟩ => ⟨S_, .f32⟩
  | .hbm, ⟨31, _⟩ => ⟨S32x512, .f32⟩
  | .hbm, ⟨32, _⟩ => ⟨S32x512, .f32⟩
  | .hbm, ⟨33, _⟩ => ⟨S32x512x1, .f32⟩
  | .hbm, ⟨34, _⟩ => ⟨S32x512x4096, .f32⟩
  | .hbm, ⟨35, _⟩ => ⟨S32x512x4096, .f32⟩
  | .hbm, ⟨36, _⟩ => ⟨S32x512x4096, .f32⟩
  | .hbm, ⟨37, _⟩ => ⟨S_, .f32⟩
  | .hbm, ⟨38, _⟩ => ⟨S32x512, .f32⟩
  | .hbm, ⟨39, _⟩ => ⟨S32x512x1, .f32⟩
  | .hbm, ⟨40, _⟩ => ⟨S32x512x4096, .f32⟩
  | .hbm, ⟨41, _⟩ => ⟨S32x512x4096, .f32⟩
  | .hbm, ⟨42, _⟩ => ⟨S32x512x128, .f32⟩
  | .hbm, ⟨43, _⟩ => ⟨S512x32x128, .f32⟩
  | .hbm, ⟨44, _⟩ => ⟨S512x4096, .f32⟩
  | _, _ => ⟨S512x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_cst_2 : Ref sig .tc := ⟨.hbm, 25, rfl⟩
abbrev main_v16 : Ref sig .tc := ⟨.hbm, 26, rfl⟩
abbrev main_v17 : Ref sig .tc := ⟨.hbm, 27, rfl⟩
abbrev main_cst_3 : Ref sig .tc := ⟨.hbm, 28, rfl⟩
abbrev main_v18 : Ref sig .tc := ⟨.hbm, 29, rfl⟩
abbrev main_cst_4 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_cst_5 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩

abbrev nD : Nat := 1
abbrev τ : Topo := Topo.v7x

variable {F : FTy → Type} [FloatOps F]

class Facts₀ : Prop where
  reducesTo_S512x4096_S512_d1 : S512x4096.ReducesTo [1] S512
  h_S_ : 0 < S_.numel
  bcast_S512_S512x1_0 : S512.BroadcastsInDim S512x1 (![0] : Fin 1 → Fin S512x1.rank)
  bcast_S_S512x1 : S_.BroadcastsInDim S512x1 (![] : Fin 0 → Fin S512x1.rank)
  bcast_S512x1_S512x4096_0_1 : S512x1.BroadcastsInDim S512x4096 (![0, 1] : Fin 2 → Fin S512x4096.rank)
  bcast_S4096_S1x4096_1 : S4096.BroadcastsInDim S1x4096 (![1] : Fin 1 → Fin S1x4096.rank)
  bcast_S1x4096_S512x4096_0_1 : S1x4096.BroadcastsInDim S512x4096 (![0, 1] : Fin 2 → Fin S512x4096.rank)
  transposes_S12288x4096_S4096x12288_1_0 : S12288x4096.Transposes [1, 0] S4096x12288
  bcast_S_S32x512x4096 : S_.BroadcastsInDim S32x512x4096 (![] : Fin 0 → Fin S32x512x4096.rank)
  reducesTo_S32x512x4096_S32x512_d2 : S32x512x4096.ReducesTo [2] S32x512
  bcast_S_S32x512 : S_.BroadcastsInDim S32x512 (![] : Fin 0 → Fin S32x512.rank)
  bcast_S32x512_S32x512x1_0_1 : S32x512.BroadcastsInDim S32x512x1 (![0, 1] : Fin 2 → Fin S32x512x1.rank)
  bcast_S32x512x1_S32x512x4096_0_1_2 : S32x512x1.BroadcastsInDim S32x512x4096 (![0, 1, 2] : Fin 3 → Fin S32x512x4096.rank)
  transposes_S32x512x128_S512x32x128_1_0_2 : S32x512x128.Transposes [1, 0, 2] S512x32x128
  shapeCasts_S512x32x128_S512x4096 : S512x32x128.ShapeCasts S512x4096
  dot_S512x4096_S4096x12288_S512x12288_1_0_0_1_n_n_wf : DotDims.WF S512x4096 S4096x12288 S512x12288 [1] [0] [0] [1] [] []
  dot_S32x512x128_S32x4096x128_S32x512x4096_2_2_1_1_0_0_wf : DotDims.WF S32x512x128 S32x4096x128 S32x512x4096 [2] [2] [1] [1] [0] [0]
  dot_S32x512x4096_S32x4096x128_S32x512x128_2_1_1_2_0_0_wf : DotDims.WF S32x512x4096 S32x4096x128 S32x512x128 [2] [1] [1] [2] [0] [0]

variable [Facts₀]

def dot_S512x4096_S4096x12288_S512x12288_1_0_0_1_n_n : DotDims S512x4096 S4096x12288 S512x12288 where
  lhsContracting := [1]
  rhsContracting := [0]
  lhsNonContracting := [0]
  rhsNonContracting := [1]
  lhsBatch := []
  rhsBatch := []
  wf := dot_S512x4096_S4096x12288_S512x12288_1_0_0_1_n_n_wf
def dot_S32x512x128_S32x4096x128_S32x512x4096_2_2_1_1_0_0 : DotDims S32x512x128 S32x4096x128 S32x512x4096 where
  lhsContracting := [2]
  rhsContracting := [2]
  lhsNonContracting := [1]
  rhsNonContracting := [1]
  lhsBatch := [0]
  rhsBatch := [0]
  wf := dot_S32x512x128_S32x4096x128_S32x512x4096_2_2_1_1_0_0_wf
def dot_S32x512x4096_S32x4096x128_S32x512x128_2_1_1_2_0_0 : DotDims S32x512x4096 S32x4096x128 S32x512x128 where
  lhsContracting := [2]
  rhsContracting := [1]
  lhsNonContracting := [1]
  rhsNonContracting := [2]
  lhsBatch := [0]
  rhsBatch := [0]
  wf := dot_S32x512x4096_S32x4096x128_S32x512x128_2_1_1_2_0_0_wf

class Facts : Prop extends Facts₀ where

variable [Facts]
-- ==== Proof.AttnSpec.lean ====
import Idealize.ShloMosaic.PureOps.Ideal
import Idealize.ShloMosaic.PureOps.Ideal.Laws

/-!
# One row of softmax attention on the extended reals, in two arrangements

For one query row `q : Fin 128 → EReal`, keys `k` and values `v : Fin 4096 → Fin 128 → EReal`, a scale `c` and the
starting value `ninf` of the running maximum:

* `attnK` scales the query first, `s p = ∑ d, (q d · c) · k p d`, subtracts the row maximum, exponentiates, takes the
  weighted sum of the values and divides that ONE number by the sum of the weights:
  `(∑ p, e p · v p d) / (∑ p, e p)`.
* `attnR` scales the scores, `s p = (∑ d, q d · k p d) · c`, and divides every weight by the sum of the weights before
  the weighted sum of the values: `∑ p, (e p / (0 + ∑ p', e p')) · v p d`.

On REAL data the two agree: the scale moves across the finite sum over `d` (distributivity), the maximum of finitely
many reals is a real, so every weight `exp (s p - max)` is a positive real and their sum `L` a positive real, and
`(∑ p, e p · v p d) · L⁻¹ = ∑ p, (e p · L⁻¹) · v p d` (distributivity again). Each step fails at an infinity, which is why
the data are taken real.
-/

noncomputable section

namespace Cert.Attn

open Idealize.ShloMosaic

/-- The scores of one query row with the scale folded into the query. -/
def scoresK (c : EReal) (q : Fin 128 → EReal) (k : Fin 4096 → Fin 128 → EReal) (p : Fin 4096) : EReal :=
  ∑ d : Fin 128, (q d * c) * k p d

/-- The scores of one query row scaled after the contraction. -/
def scoresR (c : EReal) (q : Fin 128 → EReal) (k : Fin 4096 → Fin 128 → EReal) (p : Fin 4096) : EReal :=
  (∑ d : Fin 128, q d * k p d) * c

/-- The maximum of a row of scores, folded from `ninf`. -/
def rowMax (ninf : EReal) (s : Fin 4096 → EReal) : EReal :=
  (Finset.univ : Finset (Fin 4096)).fold max ninf s

/-- Attention with the normalisation AFTER the weighted sum of the values. -/
def attnK (c ninf : EReal) (q : Fin 128 → EReal) (k v : Fin 4096 → Fin 128 → EReal) (d : Fin 128) : EReal :=
  Ideal.div (∑ p : Fin 4096, Ideal.exp (scoresK c q k p - rowMax ninf (scoresK c q k)) * v p d)
    (∑ p : Fin 4096, Ideal.exp (scoresK c q k p - rowMax ninf (scoresK c q k)))

/-- Attention with every weight normalised BEFORE the weighted sum of the values (and the maximum taken once more
    against `ninf`, the sum of the weights started from `0`). -/
def attnR (c ninf : EReal) (q : Fin 128 → EReal) (k v : Fin 4096 → Fin 128 → EReal) (d : Fin 128) : EReal :=
  ∑ p : Fin 4096, Ideal.div (Ideal.exp (scoresR c q k p - max ninf (rowMax ninf (scoresR c q k))))
      (0 + ∑ p' : Fin 4096, Ideal.exp (scoresR c q k p' - max ninf (rowMax ninf (scoresR c q k)))) * v p d

/-- A finite sum of reals, each read as an extended real, is the real sum read as an extended real. -/
theorem coe_sum {ι : Type*} (s : Finset ι) (f : ι → ℝ) : (∑ i ∈ s, (f i : EReal)) = ((∑ i ∈ s, f i : ℝ) : EReal) := by
  classical
  induction s using Finset.induction_on with
  | empty => simp
  | insert a s ha ih => rw [Finset.sum_insert ha, Finset.sum_insert ha, ih, EReal.coe_add]

/-- On real data both arrangements of the scores are the real number `(∑ d, q d · k p d) · c`. -/
theorem scoresK_coe (c : ℝ) (q : Fin 128 → ℝ) (k : Fin 4096 → Fin 128 → ℝ) (p : Fin 4096) :
    scoresK (c : EReal) (fun d => (q d : EReal)) (fun p d => (k p d : EReal)) p = (((∑ d, q d * k p d) * c : ℝ) : EReal) := by
  unfold scoresK
  simp only [← EReal.coe_mul]
  rw [coe_sum, Finset.sum_mul]
  exact congrArg _ (Finset.sum_congr rfl fun d _ => by ring)

theorem scoresR_coe (c : ℝ) (q : Fin 128 → ℝ) (k : Fin 4096 → Fin 128 → ℝ) (p : Fin 4096) :
    scoresR (c : EReal) (fun d => (q d : EReal)) (fun p d => (k p d : EReal)) p = (((∑ d, q d * k p d) * c : ℝ) : EReal) := by
  unfold scoresR
  simp only [← EReal.coe_mul]
  rw [coe_sum, ← EReal.coe_mul]

/-- The maximum of a row of reals, folded from `-∞`, is a real: it is below `+∞` because every entry is, and above
    `-∞` because the row has an entry. -/
theorem rowMax_real (s : Fin 4096 → ℝ) : ∃ M : ℝ, rowMax ⊥ (fun p => (s p : EReal)) = (M : EReal) := by
  have h1 : rowMax ⊥ (fun p => (s p : EReal)) ≠ ⊤ := by
    apply ne_of_lt
    unfold rowMax
    rw [Finset.fold_max_lt]
    exact ⟨bot_lt_top, fun x _ => EReal.coe_lt_top _⟩
  have h2 : rowMax ⊥ (fun p => (s p : EReal)) ≠ ⊥ := by
    apply ne_of_gt
    unfold rowMax
    rw [Finset.lt_fold_max]
    exact Or.inr ⟨0, Finset.mem_univ _, EReal.bot_lt_coe _⟩
  exact ⟨_, (EReal.coe_toReal h1 h2).symm⟩

/-- ON REAL DATA THE TWO ARRANGEMENTS AGREE. -/
theorem attnK_eq_attnR_coe (c : ℝ) (q : Fin 128 → ℝ) (k v : Fin 4096 → Fin 128 → ℝ) (d : Fin 128) :
    attnK (c : EReal) ⊥ (fun d => (q d : EReal)) (fun p d => (k p d : EReal)) (fun p d => (v p d : EReal)) d
      = attnR (c : EReal) ⊥ (fun d => (q d : EReal)) (fun p d => (k p d : EReal)) (fun p d => (v p d : EReal)) d := by
  have hK : scoresK (c : EReal) (fun d => (q d : EReal)) (fun p d => (k p d : EReal))
      = fun p => (((∑ d, q d * k p d) * c : ℝ) : EReal) := funext fun p => scoresK_coe c q k p
  have hR : scoresR (c : EReal) (fun d => (q d : EReal)) (fun p d => (k p d : EReal))
      = fun p => (((∑ d, q d * k p d) * c : ℝ) : EReal) := funext fun p => scoresR_coe c q k p
  obtain ⟨M, hM⟩ := rowMax_real fun p => (∑ d, q d * k p d) * c
  unfold attnK attnR
  rw [hK, hR, hM, max_eq_right bot_le]
  simp only [← EReal.coe_sub, Ideal.exp_coe, ← EReal.coe_mul]
  rw [coe_sum, coe_sum, zero_add]
  have hL : (∑ p : Fin 4096, Real.exp ((∑ d, q d * k p d) * c - M)) ≠ 0 :=
    ne_of_gt (Finset.sum_pos (fun p _ => Real.exp_pos _) Finset.univ_nonempty)
  rw [Ideal.div_coe hL]
  simp only [Ideal.div_coe hL, ← EReal.coe_mul]
  rw [coe_sum, Finset.sum_mul]
  exact congrArg _ (Finset.sum_congr rfl fun p _ => by ring)

/-- The same for extended-real data each of whose entries is a real, and a scale that is a real. -/
theorem attnK_eq_attnR (c : EReal) (hc : ∃ r : ℝ, c = r) (q : Fin 128 → EReal) (k v : Fin 4096 → Fin 128 → EReal)
    (hq : ∀ d, ∃ r : ℝ, q d = r) (hk : ∀ p d, ∃ r : ℝ, k p d = r) (hv : ∀ p d, ∃ r : ℝ, v p d = r) (d : Fin 128) :
    attnK c ⊥ q k v d = attnR c ⊥ q k v d := by
  obtain ⟨cr, rfl⟩ := hc
  choose qr hqr using hq
  choose kr hkr using hk
  choose vr hvr using hv
  obtain rfl : q = fun d => (qr d : EReal) := funext hqr
  obtain rfl : k = fun p d => (kr p d : EReal) := funext fun p => funext fun d => hkr p d
  obtain rfl : v = fun p d => (vr p d : EReal) := funext fun p => funext fun d => hvr p d
  exact attnK_eq_attnR_coe cr qr kr vr d

/-- The f32 word of `-∞` denotes the bottom of the extended reals. -/
theorem ofBits_ninf : Ideal.ofBits .f32 0xFF800000#32 = ⊥ := by simp [Ideal.ofBits, Ideal.ieee]

/-- The f32 word of the scale denotes a real number (a dyadic rational). -/
theorem ofBits_scale_real : ∃ r : ℝ, Ideal.ofBits .f32 0x3DB504F3#32 = (r : EReal) := by
  simp [Ideal.ofBits, Ideal.ieee, -EReal.coe_mul]

end Cert.Attn

end
-- ==== Proof.LibColumnCasts.lean ====
import Idealize.ShloMosaic.Lib.Pipeline.Value
import Idealize.ShloMosaic.Lib.ValueIdx

/-! # Column casts read at an index

A vector of length `a` seen as an `a × 1` column (what a sum along the last axis that keeps the axis produces),
and an `a × 1` column seen as a vector again. Both casts keep the row-major position: entry `i` of the vector is
entry `(i, 0)` of the column. Stated for any extent `a` and any element type, over indices written with
`ix1` / `ix2`, so that they apply to a printed cast by unification. -/

namespace ColumnCasts

open Idealize.ShloMosaic Idealize.ShloMosaic.ValueIdx

variable {α : Type}

/-- A length-`a` vector cast to an `a × 1` column reads, at `(i, u)`, the vector at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `a × 1` column cast to a length-`a` vector reads, at `i`, the column at `(i, 0)`. -/
theorem shapeCast_a1_a_apply {a : ℕ} (x : (⟨2, ![a, 1]⟩ : Shape).Idx → α) (h : (⟨2, ![a, 1]⟩ : Shape).ShapeCasts ⟨1, ![a]⟩)
    (i : Fin a) : shapeCast ⟨1, ![a]⟩ x h (ix1 i) = x (ix2 i (0 : Fin 1)) :=
  shapeCast_apply x h _ _ (by
    rw [Shape.rowMajor_val_two, Shape.rowMajor_val_one]
    show i.val * 1 + 0 = i.val
    rw [Nat.mul_one, Nat.add_zero])

end ColumnCasts
-- ==== Proof.LibColumnBroadcast.lean ====
import Idealize.ShloMosaic.Lib.Pipeline.Value
import Idealize.ShloMosaic.Lib.ValueIdx

/-! # A column broadcast along the last axis, read at an index

An `a × 1` column broadcast to `a × b` (what a row statistic kept as a column becomes when it is combined with the
whole row again) repeats entry `(i, 0)` along row `i`. Stated for any extents and any element type, over indices
written with `ix2`, so that it applies to a printed broadcast by unification. -/

namespace ColumnBroadcast

open Idealize.ShloMosaic Idealize.ShloMosaic.ValueIdx

variable {α : Type}

/-- An `a × 1` column broadcast to `a × b` reads, at `(i, j)`, the column at `(i, 0)`. -/
theorem broadcastTo_a1_ab_apply {a b : ℕ} (v : (⟨2, ![a, 1]⟩ : Shape).Idx → α)
    (h : (⟨2, ![a, 1]⟩ : Shape).Broadcasts ⟨2, ![a, b]⟩) (i : Fin a) (j : Fin b) :
    broadcastTo ⟨2, ![a, b]⟩ v h (ix2 i j) = v (ix2 i (0 : Fin 1)) := by
  refine broadcastTo_apply v h (ix2 i j) (ix2 i (0 : Fin 1)) fun ax => ?_
  match ax with
  | ⟨0, _⟩ =>
    show i.val = if a = 1 then 0 else i.val
    split
    · have := i.isLt; omega
    · rfl
  | ⟨1, _⟩ => rfl

end ColumnBroadcast
-- ==== Proof.KernelRow.lean ====
import proofs.«178379_j76536317215262_2_alg».proof.Proof.Gen.KernelIdeal.Skeleton
import proofs.«178379_j76536317215262_2_alg».proof.Proof.AttnSpec
import proofs.«178379_j76536317215262_2_alg».proof.Proof.LibColumnCasts
import proofs.«178379_j76536317215262_2_alg».proof.Proof.LibColumnBroadcast
import Idealize.ShloMosaic.Lib.ValueIdx
import Idealize.ShloMosaic.Lib.ValueLayout
import Idealize.ShloMosaic.Lib.Pipeline.Value
import Idealize.ShloMosaic.PureOps.Ideal.Laws

/-!
# The kernel body's value at an index

One grid point's body takes a `512 × 128` block of queries and `4096 × 128` blocks of keys and values. Read on the
extended reals it computes, for query row `r` and lane `d`: the scores `s p = ∑ d', (q (r, d') · c) · k (p, d')` (a matrix
product into a zero accumulator, the changes of float format the identity), their maximum over the 4096 key positions
(a lane reduction, kept as a column and spread over the row again), the weights `e p = exp (s p - max)`, their sum
(another lane reduction kept as a column), the product `∑ p, e p · v (p, d)`, and the quotient of the last two. Each
non-pointwise operation is read at an index written by coordinates, and the body's value at `(r, d)` is the
specification's row in the arrangement that normalises after the weighted sum.
-/

noncomputable section

namespace Cert.KernelIdeal.Row

open Cert.KernelIdeal Cert.KernelIdeal.Gen Idealize.ShloMosaic Idealize.ShloMosaic.ValueIdx Cert.Attn

/-- The dimension numbers of `q · kᵀ` (both operands contracted along their last axis) and of `p · v`. -/
abbrev DQK := dot_S512x128_S4096x128_S512x4096_1_1_0_0_n_n
abbrev DPV := dot_S512x4096_S4096x128_S512x128_1_0_0_1_n_n

theorem lhsQK_0 (i : S512x4096.Idx) (q : DQK.contr.Idx) : (DQK.lhsIdx i q 0).val = (i 0).val := by
  unfold DotDims.lhsIdx
  rw [dif_neg (show ¬(0 : Fin S512x128.rank) ∈ DQK.lhsBatch by decide), dif_pos (show (0 : Fin S512x128.rank) ∈ DQK.lhsNonContracting by decide)]
  rfl
theorem lhsQK_1 (i : S512x4096.Idx) (q : DQK.contr.Idx) : (DQK.lhsIdx i q 1).val = (q ⟨0, by decide⟩).val :=
  DQK.lhsIdx_val_of_single rfl i q
theorem rhsQK_0 (i : S512x4096.Idx) (q : DQK.contr.Idx) : (DQK.rhsIdx i q 0).val = (i 1).val := by
  unfold DotDims.rhsIdx
  rw [dif_neg (show ¬(0 : Fin S4096x128.rank) ∈ DQK.rhsBatch by decide), dif_pos (show (0 : Fin S4096x128.rank) ∈ DQK.rhsNonContracting by decide)]
  rfl
theorem rhsQK_1 (i : S512x4096.Idx) (q : DQK.contr.Idx) : (DQK.rhsIdx i q 1).val = (q ⟨0, by decide⟩).val :=
  DQK.rhsIdx_val_of_single rfl i q

/-- Entry `(r, p)` of `a · bᵀ` into a zero accumulator is `∑ d, a (r, d) · b (p, d)`. -/
theorem qk_apply (a : FVec Ideal S512x128 .bf16) (b : FVec Ideal S4096x128 .bf16) (r : Fin 512) (p : Fin 4096) :
    matmul DQK none a b (constant (F := Ideal) S512x4096 .f32 0x00000000#32) (ix2 r p)
      = ∑ d : Fin 128, a (ix2 r d) * b (ix2 p d) := by
  simp only [matmul]
  rw [Ideal.matmul_constant_zero_apply, ← Equiv.sum_comp (contrEquiv1 DQK 128 rfl rfl).symm]
  refine Finset.sum_congr rfl fun k _ => ?_
  have hk := contrEquiv1_symm_val DQK 128 rfl rfl k
  have el : DQK.lhsIdx (ix2 r p) ((contrEquiv1 DQK 128 rfl rfl).symm k) = ix2 r k := funext fun ax => Fin.ext (by
    match ax with
    | ⟨0, _⟩ => exact lhsQK_0 _ _
    | ⟨1, _⟩ => exact (lhsQK_1 _ _).trans hk)
  have er : DQK.rhsIdx (ix2 r p) ((contrEquiv1 DQK 128 rfl rfl).symm k) = ix2 p k := funext fun ax => Fin.ext (by
    match ax with
    | ⟨0, _⟩ => exact rhsQK_0 _ _
    | ⟨1, _⟩ => exact (rhsQK_1 _ _).trans hk)
  rw [el, er]

theorem lhsPV_0 (i : S512x128.Idx) (q : DPV.contr.Idx) : (DPV.lhsIdx i q 0).val = (i 0).val := by
  unfold DotDims.lhsIdx
  rw [dif_neg (show ¬(0 : Fin S512x4096.rank) ∈ DPV.lhsBatch by decide), dif_pos (show (0 : Fin S512x4096.rank) ∈ DPV.lhsNonContracting by decide)]
  rfl
theorem lhsPV_1 (i : S512x128.Idx) (q : DPV.contr.Idx) : (DPV.lhsIdx i q 1).val = (q ⟨0, by decide⟩).val :=
  DPV.lhsIdx_val_of_single rfl i q
theorem rhsPV_0 (i : S512x128.Idx) (q : DPV.contr.Idx) : (DPV.rhsIdx i q 0).val = (q ⟨0, by decide⟩).val :=
  DPV.rhsIdx_val_of_single rfl i q
theorem rhsPV_1 (i : S512x128.Idx) (q : DPV.contr.Idx) : (DPV.rhsIdx i q 1).val = (i 1).val := by
  unfold DotDims.rhsIdx
  rw [dif_neg (show ¬(1 : Fin S4096x128.rank) ∈ DPV.rhsBatch by decide), dif_pos (show (1 : Fin S4096x128.rank) ∈ DPV.rhsNonContracting by decide)]
  rfl

/-- Entry `(r, d)` of `a · b` into a zero accumulator is `∑ p, a (r, p) · b (p, d)`. -/
theorem pv_apply (a : FVec Ideal S512x4096 .bf16) (b : FVec Ideal S4096x128 .bf16) (r : Fin 512) (d : Fin 128) :
    matmul DPV none a b (constant (F := Ideal) S512x128 .f32 0x00000000#32) (ix2 r d)
      = ∑ p : Fin 4096, a (ix2 r p) * b (ix2 p d) := by
  simp only [matmul]
  rw [Ideal.matmul_constant_zero_apply, ← Equiv.sum_comp (contrEquiv1 DPV 4096 rfl rfl).symm]
  refine Finset.sum_congr rfl fun k _ => ?_
  have hk := contrEquiv1_symm_val DPV 4096 rfl rfl k
  have el : DPV.lhsIdx (ix2 r d) ((contrEquiv1 DPV 4096 rfl rfl).symm k) = ix2 r k := funext fun ax => Fin.ext (by
    match ax with
    | ⟨0, _⟩ => exact lhsPV_0 _ _
    | ⟨1, _⟩ => exact (lhsPV_1 _ _).trans hk)
  have er : DPV.rhsIdx (ix2 r d) ((contrEquiv1 DPV 4096 rfl rfl).symm k) = ix2 k d := funext fun ax => Fin.ext (by
    match ax with
    | ⟨0, _⟩ => exact (rhsPV_0 _ _).trans hk
    | ⟨1, _⟩ => exact rhsPV_1 _ _)
  rw [el, er]

/-- The lane maximum of row `r` is the fold of `max` over the row's entries, from the accumulator's value. -/
theorem rowmax_apply (src : FVec Ideal S512x4096 .f32) (hφ : FTy.f32 = FTy.f32 ∨ FTy.f32 = FTy.bf16)
    (hacc : (0xFF800000#32 : BitVec 32) = 0xFF800000#32) (r : Fin 512) :
    multiReduction .maximumf [1] S512 src 0xFF800000#32 reduces_S512x4096_S512 hφ hacc (ix1 r)
      = rowMax (Ideal.ofBits .f32 0xFF800000#32) (fun p => src (ix2 r p)) := by
  refine (Ideal.multiReduction_maximumf_single src 0xFF800000#32 reduces_S512x4096_S512 hφ hacc (ix1 r)).trans ?_
  exact congrArg (fun f => (Finset.univ : Finset (Fin 4096)).fold max (Ideal.ofBits .f32 0xFF800000#32) f)
    (funext fun p => congrArg src (funext fun ax => Fin.ext (by match ax with | ⟨0, _⟩ => rfl | ⟨1, _⟩ => rfl)))

/-- The lane sum of row `r` is the sum of the row's entries. -/
theorem rowsum_apply (src : FVec Ideal S512x4096 .f32) (hφ : FTy.f32 = FTy.f32 ∨ FTy.f32 = FTy.bf16)
    (hacc : (0x00000000#32 : BitVec 32) = 0x00000000#32) (r : Fin 512) :
    multiReduction .add [1] S512 src 0x00000000#32 reduces_S512x4096_S512 hφ hacc (ix1 r)
      = ∑ p : Fin 4096, src (ix2 r p) := by
  refine (Ideal.multiReduction_add_single src 0x00000000#32 reduces_S512x4096_S512 hφ hacc (ix1 r)).trans ?_
  exact Finset.sum_congr rfl fun p _ =>
    congrArg src (funext fun ax => Fin.ext (by match ax with | ⟨0, _⟩ => rfl | ⟨1, _⟩ => rfl))

/-- A row statistic kept as a column and spread over `n` lanes again reads, at `(r, j)`, the statistic of row `r`. -/
theorem column_apply {n : ℕ} (w : FVec Ideal S512 .f32) (hb : S512x1.Broadcasts ⟨2, ![512, n]⟩) (r : Fin 512) (j : Fin n) :
    broadcastTo ⟨2, ![512, n]⟩ (shapeCast S512x1 w shapeCasts_S512_S512x1) hb (ix2 r j) = w (ix1 r) :=
  (ColumnBroadcast.broadcastTo_a1_ab_apply _ hb r j).trans (ColumnCasts.shapeCast_a_a1_apply w _ r 0)

theorem column4096_apply (w : FVec Ideal S512 .f32) (r : Fin 512) (j : Fin 4096) :
    broadcastTo S512x4096 (shapeCast S512x1 w shapeCasts_S512_S512x1) broadcasts_S512x1_S512x4096 (ix2 r j) = w (ix1 r) :=
  column_apply w broadcasts_S512x1_S512x4096 r j

theorem column128_apply (w : FVec Ideal S512 .f32) (r : Fin 512) (j : Fin 128) :
    broadcastTo S512x128 (shapeCast S512x1 w shapeCasts_S512_S512x1) broadcasts_S512x1_S512x128 (ix2 r j) = w (ix1 r) :=
  column_apply w broadcasts_S512x1_S512x128 r j

/-- The exponential of an array reads, at an index, the exponential of the entry. -/
theorem exp_apply {s : Shape} {φ : FTy} (a : FVec Ideal s φ) (i : s.Idx) : exp a i = Ideal.exp (a i) := rfl

/-- The scores as a function of the key position. -/
theorem scoresK_fun (c : EReal) (q : Fin 128 → EReal) (k : Fin 4096 → Fin 128 → EReal) :
    scoresK c q k = fun p => ∑ d : Fin 128, (q d * c) * k p d := rfl

/-- THE BODY'S RESULT AT `(r, d)`: softmax attention of query row `r` of the block against the block's keys and values,
    in the arrangement that scales the query first and normalises after the weighted sum. -/
theorem pay_apply (x0 : Vec Ideal S1x512x128 .f32) (x1 x2 : Vec Ideal S1x4096x128 .f32) (r : Fin 512) (d : Fin 128) :
    k0_pay1 (F := Ideal) x0 x1 x2 (ix2 r d)
      = attnK (Ideal.ofBits .f32 0x3DB504F3#32) (Ideal.ofBits .f32 0xFF800000#32)
          (fun dd => x0 (ix3 (0 : Fin 1) r dd)) (fun p dd => x1 (ix3 (0 : Fin 1) p dd)) (fun p dd => x2 (ix3 (0 : Fin 1) p dd)) d := by
  unfold k0_pay1
  dsimp only
  simp only [divf_apply, pv_apply, truncf_apply, exp_apply, subf_apply, column4096_apply, column128_apply, qk_apply,
    mulf_apply, broadcast_apply, shapeCast_1ab_ab_apply, Ideal.ofBits_def, attnK, scoresK_fun]
  rw [rowsum_apply]
  simp only [divf_apply, pv_apply, truncf_apply, exp_apply, subf_apply, column4096_apply, column128_apply, qk_apply,
    mulf_apply, broadcast_apply, shapeCast_1ab_ab_apply, Ideal.ofBits_def, attnK, scoresK_fun]
  rw [rowmax_apply]
  simp only [divf_apply, pv_apply, truncf_apply, exp_apply, subf_apply, column4096_apply, column128_apply, qk_apply,
    mulf_apply, broadcast_apply, shapeCast_1ab_ab_apply, Ideal.ofBits_def, attnK, scoresK_fun]

end Cert.KernelIdeal.Row

end
-- ==== Proof.AttnArray.lean ====
import proofs.«178379_j76536317215262_2_alg».proof.Proof.AttnSpec
import Idealize.ShloMosaic.Lib.ValueIdx

/-!
# Multi-head attention as one function of the three arrays

The result is a `512 × 4096` array whose column `h·128 + d` is lane `d` of head `h`: entry `(r, h·128 + d)` is softmax
attention of query row `(h, r, ·)` against head `h`'s keys `(h, ·, ·)` and values `(h, ·, ·)`. `attnArr` states it in the
arrangement that normalises after the weighted sum of the values, `refArr` in the one that normalises every weight
first; on arrays all of whose entries are reals the two are one function.
-/

noncomputable section

namespace Cert.Attn

open Idealize.ShloMosaic Idealize.ShloMosaic.ValueIdx

/-- The row, the head and the lane of an index of the result. -/
def orow (i : (⟨2, ![512, 4096]⟩ : Shape).Idx) : Fin 512 := ⟨(i 0).val, idx2_lt0 i⟩
def ohead (i : (⟨2, ![512, 4096]⟩ : Shape).Idx) : Fin 32 := ⟨(i 1).val / 128, by have := idx2_lt1 i; omega⟩
def olane (i : (⟨2, ![512, 4096]⟩ : Shape).Idx) : Fin 128 := ⟨(i 1).val % 128, Nat.mod_lt _ (by decide)⟩

/-- The result, normalised after the weighted sum of the values. -/
def attnArr (q : (⟨3, ![32, 512, 128]⟩ : Shape).Idx → EReal) (k v : (⟨3, ![32, 4096, 128]⟩ : Shape).Idx → EReal) :
    (⟨2, ![512, 4096]⟩ : Shape).Idx → EReal := fun i =>
  attnK (Ideal.ofBits .f32 0x3DB504F3#32) (Ideal.ofBits .f32 0xFF800000#32)
    (fun dd => q (ix3 (ohead i) (orow i) dd)) (fun p dd => k (ix3 (ohead i) p dd)) (fun p dd => v (ix3 (ohead i) p dd))
    (olane i)

/-- The result, every weight normalised before the weighted sum of the values. -/
def refArr (q : (⟨3, ![32, 512, 128]⟩ : Shape).Idx → EReal) (k v : (⟨3, ![32, 4096, 128]⟩ : Shape).Idx → EReal) :
    (⟨2, ![512, 4096]⟩ : Shape).Idx → EReal := fun i =>
  attnR (Ideal.ofBits .f32 0x3DB504F3#32) (Ideal.ofBits .f32 0xFF800000#32)
    (fun dd => q (ix3 (ohead i) (orow i) dd)) (fun p dd => k (ix3 (ohead i) p dd)) (fun p dd => v (ix3 (ohead i) p dd))
    (olane i)

/-- On arrays of reals the two arrangements are one function: entry by entry, the row lemma of the specification, the
    scale a real and the maximum's starting value `-∞`. -/
theorem attnArr_eq_refArr (q : (⟨3, ![32, 512, 128]⟩ : Shape).Idx → EReal) (k v : (⟨3, ![32, 4096, 128]⟩ : Shape).Idx → EReal)
    (hq : ∀ i, ∃ r : ℝ, q i = (r : EReal)) (hk : ∀ i, ∃ r : ℝ, k i = (r : EReal)) (hv : ∀ i, ∃ r : ℝ, v i = (r : EReal)) :
    attnArr q k v = refArr q k v := by
  funext i
  unfold attnArr refArr
  rw [ofBits_ninf]
  exact attnK_eq_attnR _ ofBits_scale_real _ _ _ (fun d => hq _) (fun p d => hk _) (fun p d => hv _) _

end Cert.Attn

end
-- ==== Proof.KernelBlock.lean ====
import proofs.«178379_j76536317215262_2_alg».proof.Proof.KernelRow
import proofs.«178379_j76536317215262_2_alg».proof.Proof.AttnArray

/-!
# One grid point's block of the result

Grid point `hh` loads head `hh` of the query, key and value arrays and stores a `512 × 128` block that lands in columns
`hh·128 … hh·128 + 127` of the result. Stated over plain vectors `x0 x1 x2` that agree with head `hh` of the arrays and
an index `i` of the result that sits at `(y 0, hh·128 + y 1)`: the body's value at `y` is the array function at `i`.
-/

noncomputable section

namespace Cert.KernelIdeal.Row

open Cert.KernelIdeal Cert.KernelIdeal.Gen Idealize.ShloMosaic Idealize.ShloMosaic.ValueIdx Cert.Attn

theorem block_eq (q : S32x512x128.Idx → EReal) (k v : S32x4096x128.Idx → EReal)
    (x0 : Vec Ideal S1x512x128 .f32) (x1 x2 : Vec Ideal S1x4096x128 .f32) (hh : Fin 32)
    (h0 : ∀ (r : Fin 512) (dd : Fin 128), x0 (ix3 (0 : Fin 1) r dd) = q (ix3 hh r dd))
    (h1 : ∀ (p : Fin 4096) (dd : Fin 128), x1 (ix3 (0 : Fin 1) p dd) = k (ix3 hh p dd))
    (h2 : ∀ (p : Fin 4096) (dd : Fin 128), x2 (ix3 (0 : Fin 1) p dd) = v (ix3 hh p dd))
    (y : S512x128.Idx) (i : S512x4096.Idx) (hi0 : (i 0).val = (y 0).val) (hi1 : (i 1).val = hh.val * 128 + (y 1).val) :
    k0_pay1 (F := Ideal) x0 x1 x2 y = attnArr q k v i := by
  obtain ⟨r, d, rfl⟩ : ∃ (r : Fin 512) (d : Fin 128), y = ix2 r d := ⟨y 0, y 1, eq_ix2 y⟩
  have hi0' : (i 0).val = r.val := hi0
  have hi1' : (i 1).val = hh.val * 128 + d.val := hi1
  have hd : d.val < 128 := d.isLt
  have e1 : ohead i = hh := Fin.ext (by show (i 1).val / 128 = hh.val; omega)
  have e2 : orow i = r := Fin.ext hi0'
  have e3 : olane i = d := Fin.ext (by show (i 1).val % 128 = d.val; omega)
  rw [pay_apply]
  unfold attnArr
  rw [e1, e2, e3]
  simp only [h0, h1, h2]

end Cert.KernelIdeal.Row

end
-- ==== Proof.Final.lean ====
import proofs.«178379_j76536317215262_2_alg».proof.Proof.Gen.KernelIdeal.Value
import proofs.«178379_j76536317215262_2_alg».proof.Proof.KernelBlock

/-!
# The kernel's result array as one function of the three arrays

Grid point `t` (one per head, 32 of them) fetches head `t` of the query, key and value arrays — block index `(t, 0, 0)` of
each, a whole `1 × 512 × 128` or `1 × 4096 × 128` slab — and writes back block `(0, t)` of the `512 × 4096` result: all 512
rows, columns `t·128 … t·128 + 127`. What it writes is the array function `attnArr` read through that block (the block
lemma, with the block coordinates of each window computed from the decided index maps), the 32 blocks cover the result
(column `j` lies in block `j / 128`), so after the run the result array IS `attnArr` of the argument arrays.
-/

set_option maxRecDepth 16384

noncomputable section

namespace Cert.KernelIdeal.Final

open Cert.KernelIdeal Cert.KernelIdeal.Gen Cert.KernelIdeal.Value Cert.KernelIdeal.Row
open Idealize.ShloMosaic Idealize.ShloMosaic.TcCoe Idealize.SL.Sem Idealize.ShloMosaic.ValueIdx Cert.Attn
open Idealize.ShloMosaic.Pipeline (Dat)

variable (m : (ℓ : Loc nD τ sig) → Buf (Elt Ideal) ℓ) (ρ : Dev nD → PrngReg)

theorem hz3 : (![0, 0, 0] : Fin 3 → Nat) = fun _ => 0 := funext fun a => by fin_cases a <;> rfl
theorem hz2 : (![0, 0] : Fin 2 → Nat) = fun _ => 0 := funext fun a => by fin_cases a <;> rfl

/-- The printed index maps, decided over the 32 grid points: each input window sits at block `(t, 0, 0)`, the output
    window at block `(0, t)`. -/
theorem idx_facts : ∀ t : Fin cfg0.N,
    win0_0.index t (0 : Fin 3) = t.val ∧ win0_0.index t (1 : Fin 3) = 0 ∧ win0_0.index t (2 : Fin 3) = 0
    ∧ win0_1.index t (0 : Fin 3) = t.val ∧ win0_1.index t (1 : Fin 3) = 0 ∧ win0_1.index t (2 : Fin 3) = 0
    ∧ win0_2.index t (0 : Fin 3) = t.val ∧ win0_2.index t (1 : Fin 3) = 0 ∧ win0_2.index t (2 : Fin 3) = 0
    ∧ win0_3.index t (0 : Fin 2) = 0 ∧ win0_3.index t (1 : Fin 2) = t.val :=
  (by decide +kernel : ∀ t : Fin grid0.N, _)

/-- WHAT POINT `t` WRITES BACK is block `t` of `attnArr` of the argument arrays as the region finds them. -/
theorem flushed3_eq (c : Dev nD) (t : Fin cfg0.N) :
    (dats m 0 c).flushed 3 t = ((cfg0.win 3).blk t).view.read (Elt Ideal)
      (attnArr (V m c main_arg3) (V m c main_arg4) (V m c main_arg5)) := by
  rw [flushed3]
  unfold out0_3
  rw [View.canon_unit_zero hz2]
  simp only [View.ld_unit_zero (S := S1x512x128) hz3, View.ld_unit_zero (S := S1x4096x128) hz3]
  obtain ⟨a0, a1, a2, b0, b1, b2, c0, c1, c2, o0, o1⟩ := idx_facts t
  have ht : t.val < 32 := by have h : t.val < grid0.N := t.isLt; have hN : grid0.N = 32 := N_0; omega
  funext j
  show k0_pay1 (F := Ideal) (iblk m c 0 t) (iblk m c 1 t) (iblk m c 2 t) j
    = attnArr (V m c main_arg3) (V m c main_arg4) (V m c main_arg5) (((cfg0.win 3).blk t).view.emb j)
  refine block_eq (V m c main_arg3) (V m c main_arg4) (V m c main_arg5) (iblk m c 0 t) (iblk m c 1 t) (iblk m c 2 t)
    ⟨t.val, ht⟩ ?_ ?_ ?_ j (((cfg0.win 3).blk t).view.emb j) ?_ ?_
  · intro r dd
    show V m c main_arg3 (((cfg0.win 0).blk t).view.emb (ix3 (0 : Fin 1) r dd)) = V m c main_arg3 (ix3 ⟨t.val, ht⟩ r dd)
    refine congrArg (V m c main_arg3) (funext fun a => Fin.ext ?_)
    match a with
    | ⟨0, _⟩ => show win0_0.index t (0 : Fin 3) * 1 + 1 * 0 = t.val; omega
    | ⟨1, _⟩ => show win0_0.index t (1 : Fin 3) * 512 + 1 * r.val = r.val; omega
    | ⟨2, _⟩ => show win0_0.index t (2 : Fin 3) * 128 + 1 * dd.val = dd.val; omega
  · intro p dd
    show V m c main_arg4 (((cfg0.win 1).blk t).view.emb (ix3 (0 : Fin 1) p dd)) = V m c main_arg4 (ix3 ⟨t.val, ht⟩ p dd)
    refine congrArg (V m c main_arg4) (funext fun a => Fin.ext ?_)
    match a with
    | ⟨0, _⟩ => show win0_1.index t (0 : Fin 3) * 1 + 1 * 0 = t.val; omega
    | ⟨1, _⟩ => show win0_1.index t (1 : Fin 3) * 4096 + 1 * p.val = p.val; omega
    | ⟨2, _⟩ => show win0_1.index t (2 : Fin 3) * 128 + 1 * dd.val = dd.val; omega
  · intro p dd
    show V m c main_arg5 (((cfg0.win 2).blk t).view.emb (ix3 (0 : Fin 1) p dd)) = V m c main_arg5 (ix3 ⟨t.val, ht⟩ p dd)
    refine congrArg (V m c main_arg5) (funext fun a => Fin.ext ?_)
    match a with
    | ⟨0, _⟩ => show win0_2.index t (0 : Fin 3) * 1 + 1 * 0 = t.val; omega
    | ⟨1, _⟩ => show win0_2.index t (1 : Fin 3) * 4096 + 1 * p.val = p.val; omega
    | ⟨2, _⟩ => show win0_2.index t (2 : Fin 3) * 128 + 1 * dd.val = dd.val; omega
  · show win0_3.index t (0 : Fin 2) * 512 + 1 * (j 0).val = (j 0).val; omega
  · show win0_3.index t (1 : Fin 2) * 128 + 1 * (j 1).val = t.val * 128 + (j 1).val; omega

/-- An index of the result is in point `t`'s block iff each coordinate is in the block's range on its axis. -/
theorem mem_blk3 (t : Fin cfg0.N) (i : S512x4096.Idx) :
    i ∈ ((cfg0.win 3).blk t).view.set ↔ ∀ a : Fin 2, win0_3.index t a * S512x128.size a ≤ (i a).val
      ∧ (i a).val < win0_3.index t a * S512x128.size a + S512x128.size a := by
  show i ∈ ((View.whole main_v0).slice (win0_3.rect t)).set ↔ _
  rw [View.set_slice_whole, Rect.mem_set_unit]
  exact Iff.rfl

/-- THE COVER: column `j` of the result lies in the block of point `j / 128`. -/
theorem cover3 (i : S512x4096.Idx) :
    ∃ t : Fin cfg0.N, (cfg0.win 3).flush t = true ∧ i ∈ ((cfg0.win 3).blk t).view.set := by
  have hi0 : (i 0).val < 512 := (i 0).isLt
  have hi1 : (i 1).val < 4096 := (i 1).isLt
  have hN : grid0.N = 32 := N_0
  have hlt : (i 1).val / 128 < grid0.N := by omega
  refine ⟨⟨(i 1).val / 128, hlt⟩, flush0_3 _, ?_⟩
  obtain ⟨-, -, -, -, -, -, -, -, -, o0, o1⟩ := idx_facts ⟨(i 1).val / 128, hlt⟩
  have o1' : win0_3.index ⟨(i 1).val / 128, hlt⟩ (1 : Fin 2) = (i 1).val / 128 := o1
  rw [mem_blk3]
  intro a
  match a with
  | ⟨0, _⟩ =>
    show win0_3.index ⟨(i 1).val / 128, hlt⟩ (0 : Fin 2) * 512 ≤ (i 0).val
      ∧ (i 0).val < win0_3.index ⟨(i 1).val / 128, hlt⟩ (0 : Fin 2) * 512 + 512
    omega
  | ⟨1, _⟩ =>
    show win0_3.index ⟨(i 1).val / 128, hlt⟩ (1 : Fin 2) * 128 ≤ (i 1).val
      ∧ (i 1).val < win0_3.index ⟨(i 1).val / 128, hlt⟩ (1 : Fin 2) * 128 + 128
    omega

/-- THE RESULT ARRAY after the run is `attnArr` of the argument arrays. -/
theorem final3 (c : Dev nD) :
    (dats m 0 c).arrAt 3 cfg0.N = attnArr (V m c main_arg3) (V m c main_arg4) (V m c main_arg5) :=
  (dats m 0 c).arrAt_eq_of_cover 3 (attnArr (V m c main_arg3) (V m c main_arg4) (V m c main_arg5))
    (fun t _ => flushed3_eq m c t) cover3

/-- The run re-posted: the result array at `attnArr` of the arguments, the arguments unchanged. -/
theorem run : θ_run defs (onTc (τ := τ) (main (F := Ideal))) ⟨m, fun _ => 0, ρ⟩ fun r => ∀ c : Dev nD,
      r.2.mem ((c : Thread nD τ).loc main_v0)
        = attnArr (m ((c : Thread nD τ).loc main_arg3)) (m ((c : Thread nD τ).loc main_arg4)) (m ((c : Thread nD τ).loc main_arg5))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5) :=
  (θ_run defs _ _).mono (fun r h c => ⟨(h c).1.trans (final3 m c), (h c).2⟩) (run_blocks m ρ)

end Cert.KernelIdeal.Final

end
-- ==== Proof.RefRow.lean ====
import proofs.«178379_j76536317215262_2_alg».proof.Proof.Gen.ReferenceIdeal.Read
import proofs.«178379_j76536317215262_2_alg».proof.Proof.AttnSpec
import Idealize.ShloMosaic.Lib.ValueIdx
import Idealize.ShloMosaic.PureOps.Ideal.Laws
import Idealize.ShloMosaic.PureOps.Reduce

/-!
# The reference's result at an index

Entry `(r, h·128 + d)` of the reference's result is entry `(h, r, d)` of the batched attention (the heads are laid side by
side along the last axis), and that entry is softmax attention of query row `(h, r, ·)` against head `h`'s keys and
values, in the arrangement that scales the scores and normalises every weight before the weighted sum. Each stage is
read at an index written by coordinates.
-/

noncomputable section

namespace Cert.ReferenceIdeal.Row

open Cert.ReferenceIdeal Cert.ReferenceIdeal.Gen Cert.ReferenceIdeal.Read Idealize.ShloMosaic Idealize.ShloMosaic.ValueIdx Cert.Attn

variable (x3 : (⟨S32x512x128, .f32⟩ : BufTy).Contents (Elt Ideal)) (x4 x5 : (⟨S32x4096x128, .f32⟩ : BufTy).Contents (Elt Ideal))

/-- Column `h·128 + d` of the result is lane `d` of head `h`. -/
abbrev col (h : Fin 32) (d : Fin 128) : Fin 4096 := ⟨h.val * 128 + d.val, by have := h.isLt; have := d.isLt; omega⟩

/-! ## The stages' index maps at indices written by coordinates -/

theorem idx31_eq (r : Fin 512) (h : Fin 32) (d : Fin 128) : idx_main_v31 (ix2 r (col h d)) = ix3 r h d :=
  funext fun a => Fin.ext (by
    have := h.isLt; have := d.isLt; have := r.isLt
    match a with
    | ⟨0, _⟩ => show (r.val * 4096 + (h.val * 128 + d.val)) / 4096 = r.val; omega
    | ⟨1, _⟩ => show (r.val * 4096 + (h.val * 128 + d.val)) / 128 % 32 = h.val; omega
    | ⟨2, _⟩ => show (r.val * 4096 + (h.val * 128 + d.val)) % 128 = d.val; omega)

theorem idx30_eq (r : Fin 512) (h : Fin 32) (d : Fin 128) : idx_main_v30 (ix3 r h d) = ix3 h r d :=
  funext fun a => Fin.ext (by match a with | ⟨0, _⟩ => rfl | ⟨1, _⟩ => rfl | ⟨2, _⟩ => rfl)

theorem lidx29_eq (h : Fin 32) (r : Fin 512) (d : Fin 128) (p : Fin 4096) : lidx_main_v29 (ix3 h r d) p = ix3 h r p :=
  funext fun a => Fin.ext (by match a with | ⟨0, _⟩ => rfl | ⟨1, _⟩ => rfl | ⟨2, _⟩ => rfl)

theorem ridx29_eq (h : Fin 32) (r : Fin 512) (d : Fin 128) (p : Fin 4096) : ridx_main_v29 (ix3 h r d) p = ix3 h p d :=
  funext fun a => Fin.ext (by match a with | ⟨0, _⟩ => rfl | ⟨1, _⟩ => rfl | ⟨2, _⟩ => rfl)

theorem idx27_eq (h : Fin 32) (r : Fin 512) (p : Fin 4096) : idx_main_v27 (ix3 h r p) = ix3 h r (0 : Fin 1) :=
  funext fun a => Fin.ext (by match a with | ⟨0, _⟩ => rfl | ⟨1, _⟩ => rfl | ⟨2, _⟩ => rfl)

theorem idx26_eq (h : Fin 32) (r : Fin 512) : idx_main_v26 (ix3 h r (0 : Fin 1)) = ix2 h r :=
  funext fun a => Fin.ext (by match a with | ⟨0, _⟩ => rfl | ⟨1, _⟩ => rfl)

theorem idx25_eq (h : Fin 32) (r : Fin 512) (p : Fin 4096) : idx_main_v25 (ix2 h r) p = ix3 h r p :=
  funext fun a => Fin.ext (by match a with | ⟨0, _⟩ => rfl | ⟨1, _⟩ => rfl | ⟨2, _⟩ => rfl)

theorem idx22_eq (h : Fin 32) (r : Fin 512) (p : Fin 4096) : idx_main_v22 (ix3 h r p) = ix3 h r (0 : Fin 1) :=
  funext fun a => Fin.ext (by match a with | ⟨0, _⟩ => rfl | ⟨1, _⟩ => rfl | ⟨2, _⟩ => rfl)

theorem idx21_eq (h : Fin 32) (r : Fin 512) : idx_main_v21 (ix3 h r (0 : Fin 1)) = ix2 h r :=
  funext fun a => Fin.ext (by match a with | ⟨0, _⟩ => rfl | ⟨1, _⟩ => rfl)

theorem lidx15_eq (h : Fin 32) (r : Fin 512) (p : Fin 4096) (d : Fin 128) : lidx_main_v15 (ix3 h r p) d = ix3 h r d :=
  funext fun a => Fin.ext (by match a with | ⟨0, _⟩ => rfl | ⟨1, _⟩ => rfl | ⟨2, _⟩ => rfl)

theorem ridx15_eq (h : Fin 32) (r : Fin 512) (p : Fin 4096) (d : Fin 128) : ridx_main_v15 (ix3 h r p) d = ix3 h p d :=
  funext fun a => Fin.ext (by match a with | ⟨0, _⟩ => rfl | ⟨1, _⟩ => rfl | ⟨2, _⟩ => rfl)

/-! ## The stages at those indices -/

/-- The reshape: `(r, h·128 + d)` of the result is `(r, h, d)` of the transposed product. -/
theorem v31_at (r : Fin 512) (h : Fin 32) (d : Fin 128) :
    val_main_v31 (F := Ideal) x3 x4 x5 (ix2 r (col h d)) = val_main_v30 (F := Ideal) x3 x4 x5 (ix3 r h d) :=
  (val_main_v31_apply x3 x4 x5 (ix2 r (col h d))).trans (congrArg (val_main_v30 (F := Ideal) x3 x4 x5) (idx31_eq r h d))

/-- The transpose: `(r, h, d)` is `(h, r, d)` of the product. -/
theorem v30_at (r : Fin 512) (h : Fin 32) (d : Fin 128) :
    val_main_v30 (F := Ideal) x3 x4 x5 (ix3 r h d) = val_main_v29 (F := Ideal) x3 x4 x5 (ix3 h r d) :=
  (val_main_v30_apply x3 x4 x5 (ix3 r h d)).trans (congrArg (val_main_v29 (F := Ideal) x3 x4 x5) (idx30_eq r h d))

/-- The product with the values: a sum over the key positions. -/
theorem v29_at (h : Fin 32) (r : Fin 512) (d : Fin 128) :
    val_main_v29 (F := Ideal) x3 x4 x5 (ix3 h r d)
      = ∑ p : Fin 4096, val_main_v28 (F := Ideal) x3 x4 (ix3 h r p) * x5 (ix3 h p d) :=
  (val_main_v29_apply x3 x4 x5 (ix3 h r d)).trans (Finset.sum_congr rfl fun p _ =>
    congrArg₂ (fun a b => val_main_v28 (F := Ideal) x3 x4 a * x5 b) (lidx29_eq h r d p) (ridx29_eq h r d p))

/-- The sum of the weights spread over the key positions again reads the kept column. -/
theorem v27_at (h : Fin 32) (r : Fin 512) (p : Fin 4096) :
    val_main_v27 (F := Ideal) x3 x4 (ix3 h r p) = val_main_v26 (F := Ideal) x3 x4 (ix3 h r (0 : Fin 1)) :=
  (val_main_v27_apply x3 x4 (ix3 h r p)).trans (congrArg (val_main_v26 (F := Ideal) x3 x4) (idx27_eq h r p))

theorem v26_at (h : Fin 32) (r : Fin 512) :
    val_main_v26 (F := Ideal) x3 x4 (ix3 h r (0 : Fin 1)) = val_main_v25 (F := Ideal) x3 x4 (ix2 h r) :=
  (val_main_v26_apply x3 x4 (ix3 h r (0 : Fin 1))).trans (congrArg (val_main_v25 (F := Ideal) x3 x4) (idx26_eq h r))

/-- The sum of the weights of row `(h, r)`, from its initial value. -/
theorem v25_at (h : Fin 32) (r : Fin 512) :
    val_main_v25 (F := Ideal) x3 x4 (ix2 h r)
      = Ideal.ofBits .f32 0x00000000#32 + ∑ p : Fin 4096, val_main_v24 (F := Ideal) x3 x4 (ix3 h r p) :=
  (val_main_v25_apply x3 x4 (ix2 h r)).trans (congrArg (fun s : EReal => Ideal.ofBits .f32 0x00000000#32 + s)
    (Finset.sum_congr rfl fun p _ => congrArg (val_main_v24 (F := Ideal) x3 x4) (idx25_eq h r p)))

/-- The row maximum spread over the key positions again reads the kept column. -/
theorem v22_at (h : Fin 32) (r : Fin 512) (p : Fin 4096) :
    val_main_v22 (F := Ideal) x3 x4 (ix3 h r p) = val_main_v21 (F := Ideal) x3 x4 (ix3 h r (0 : Fin 1)) :=
  (val_main_v22_apply x3 x4 (ix3 h r p)).trans (congrArg (val_main_v21 (F := Ideal) x3 x4) (idx22_eq h r p))

theorem v21_at (h : Fin 32) (r : Fin 512) :
    val_main_v21 (F := Ideal) x3 x4 (ix3 h r (0 : Fin 1)) = val_main_v20 (F := Ideal) x3 x4 (ix2 h r) :=
  (val_main_v21_apply x3 x4 (ix3 h r (0 : Fin 1))).trans (congrArg (val_main_v20 (F := Ideal) x3 x4) (idx21_eq h r))

/-- The maximum of row `(h, r)` of the scaled scores: the fold of `max` over the key positions, from the initial value. -/
theorem v18_at (h : Fin 32) (r : Fin 512) :
    val_main_v18 (F := Ideal) x3 x4 (ix2 h r)
      = rowMax (Ideal.ofBits .f32 0xFF800000#32) (fun p => val_main_v17 (F := Ideal) x3 x4 (ix3 h r p)) := by
  unfold val_main_v18
  generalize val_main_v17 (F := Ideal) x3 x4 = y
  refine (Host.reduce_eq_fold_single (FloatOps.maximumf (F := Ideal) (φ := .f32)) y (val_main_cst_3 (F := Ideal))
    reducesTo_S32x512x4096_S32x512_d2 (by decide) h_S_ (ix2 h r)).trans ?_
  exact congrArg (fun f => (Finset.univ : Finset (Fin 4096)).fold max (Ideal.ofBits .f32 0xFF800000#32) f)
    (funext fun p => congrArg y (funext fun a => Fin.ext (by match a with | ⟨0, _⟩ => rfl | ⟨1, _⟩ => rfl | ⟨2, _⟩ => rfl)))

/-- The scores: a sum over the lanes of query times key. -/
theorem v15_at (h : Fin 32) (r : Fin 512) (p : Fin 4096) :
    val_main_v15 (F := Ideal) x3 x4 (ix3 h r p) = ∑ d : Fin 128, x3 (ix3 h r d) * x4 (ix3 h p d) :=
  (val_main_v15_apply x3 x4 (ix3 h r p)).trans (Finset.sum_congr rfl fun d _ =>
    congrArg₂ (fun a b => x3 a * x4 b) (lidx15_eq h r p d) (ridx15_eq h r p d))

/-! ## The softmax stages of row `(h, r)`, each as the specification's term -/

/-- The scaled scores. -/
theorem scores_at (h : Fin 32) (r : Fin 512) (p : Fin 4096) :
    val_main_v17 (F := Ideal) x3 x4 (ix3 h r p)
      = scoresR (Ideal.ofBits .f32 0x3DB504F3#32) (fun dd => x3 (ix3 h r dd)) (fun p dd => x4 (ix3 h p dd)) p := by
  rw [val_main_v17_apply, v15_at, val_main_v16_apply, val_main_cst_2_apply, Ideal.mulf_def, Ideal.ofBits_def]
  rfl

/-- The row maximum as every key position sees it: the fold of `max`, once more against the initial value. -/
theorem rowmax_at (h : Fin 32) (r : Fin 512) (p : Fin 4096) :
    val_main_v22 (F := Ideal) x3 x4 (ix3 h r p) = max (Ideal.ofBits .f32 0xFF800000#32) (rowMax (Ideal.ofBits .f32 0xFF800000#32) (scoresR (Ideal.ofBits .f32 0x3DB504F3#32) (fun dd => x3 (ix3 h r dd)) (fun p dd => x4 (ix3 h p dd)))) := by
  rw [v22_at, v21_at, val_main_v20_apply, val_main_v19_apply, val_main_cst_4_apply, v18_at, Ideal.maximumf_def,
    Ideal.ofBits_def]
  exact congrArg (fun f => max (Ideal.ofBits .f32 0xFF800000#32) (rowMax (Ideal.ofBits .f32 0xFF800000#32) f)) (funext fun p => scores_at x3 x4 h r p)

/-- The weight of key position `p`. -/
theorem weight_at (h : Fin 32) (r : Fin 512) (p : Fin 4096) :
    val_main_v24 (F := Ideal) x3 x4 (ix3 h r p) = Ideal.exp (scoresR (Ideal.ofBits .f32 0x3DB504F3#32) (fun dd => x3 (ix3 h r dd)) (fun p dd => x4 (ix3 h p dd)) p - max (Ideal.ofBits .f32 0xFF800000#32) (rowMax (Ideal.ofBits .f32 0xFF800000#32) (scoresR (Ideal.ofBits .f32 0x3DB504F3#32) (fun dd => x3 (ix3 h r dd)) (fun p dd => x4 (ix3 h p dd))))) := by
  rw [val_main_v24_apply, val_main_v23_apply, Ideal.hostUnary_exp_def, Ideal.subf_def, scores_at, rowmax_at]

/-- The sum of the weights as every key position sees it. -/
theorem weightsum_at (h : Fin 32) (r : Fin 512) (p : Fin 4096) :
    val_main_v27 (F := Ideal) x3 x4 (ix3 h r p) = 0 + ∑ p' : Fin 4096, Ideal.exp (scoresR (Ideal.ofBits .f32 0x3DB504F3#32) (fun dd => x3 (ix3 h r dd)) (fun p dd => x4 (ix3 h p dd)) p' - max (Ideal.ofBits .f32 0xFF800000#32) (rowMax (Ideal.ofBits .f32 0xFF800000#32) (scoresR (Ideal.ofBits .f32 0x3DB504F3#32) (fun dd => x3 (ix3 h r dd)) (fun p dd => x4 (ix3 h p dd))))) := by
  rw [v27_at, v26_at, v25_at, Ideal.ofBits_zero_f32]
  exact congrArg (fun s : EReal => 0 + s) (Finset.sum_congr rfl fun p' _ => weight_at x3 x4 h r p')

/-- The normalised weight of key position `p`. -/
theorem prob_at (h : Fin 32) (r : Fin 512) (p : Fin 4096) :
    val_main_v28 (F := Ideal) x3 x4 (ix3 h r p)
      = Ideal.div (Ideal.exp (scoresR (Ideal.ofBits .f32 0x3DB504F3#32) (fun dd => x3 (ix3 h r dd)) (fun p dd => x4 (ix3 h p dd)) p - max (Ideal.ofBits .f32 0xFF800000#32) (rowMax (Ideal.ofBits .f32 0xFF800000#32) (scoresR (Ideal.ofBits .f32 0x3DB504F3#32) (fun dd => x3 (ix3 h r dd)) (fun p dd => x4 (ix3 h p dd)))))) (0 + ∑ p' : Fin 4096, Ideal.exp (scoresR (Ideal.ofBits .f32 0x3DB504F3#32) (fun dd => x3 (ix3 h r dd)) (fun p dd => x4 (ix3 h p dd)) p' - max (Ideal.ofBits .f32 0xFF800000#32) (rowMax (Ideal.ofBits .f32 0xFF800000#32) (scoresR (Ideal.ofBits .f32 0x3DB504F3#32) (fun dd => x3 (ix3 h r dd)) (fun p dd => x4 (ix3 h p dd)))))) := by
  rw [val_main_v28_apply, Ideal.hostDivf_def, weight_at, weightsum_at]

/-- THE REFERENCE'S RESULT AT `(r, h·128 + d)`. -/
theorem ref_apply (r : Fin 512) (h : Fin 32) (d : Fin 128) :
    val_main_v31 (F := Ideal) x3 x4 x5 (ix2 r (col h d))
      = attnR (Ideal.ofBits .f32 0x3DB504F3#32) (Ideal.ofBits .f32 0xFF800000#32)
          (fun dd => x3 (ix3 h r dd)) (fun p dd => x4 (ix3 h p dd)) (fun p dd => x5 (ix3 h p dd)) d := by
  rw [v31_at, v30_at, v29_at]
  unfold attnR
  exact Finset.sum_congr rfl fun p _ => congrArg (fun w : EReal => w * x5 (ix3 h p d)) (prob_at x3 x4 h r p)

end Cert.ReferenceIdeal.Row

end
-- ==== Proof.RefArray.lean ====
import proofs.«178379_j76536317215262_2_alg».proof.Proof.RefRow
import proofs.«178379_j76536317215262_2_alg».proof.Proof.AttnArray

/-!
# The reference's result as one function of the three arrays

Every index `i` of the result is `(row i, head i · 128 + lane i)`, so the reference's last stage is, entry by entry, the
array function in the arrangement that normalises every weight first.
-/

noncomputable section

namespace Cert.ReferenceIdeal.Row

open Cert.ReferenceIdeal Cert.ReferenceIdeal.Gen Cert.ReferenceIdeal.Read Idealize.ShloMosaic Idealize.ShloMosaic.ValueIdx Cert.Attn

theorem ref_eq (x3 : (⟨S32x512x128, .f32⟩ : BufTy).Contents (Elt Ideal)) (x4 x5 : (⟨S32x4096x128, .f32⟩ : BufTy).Contents (Elt Ideal)) :
    val_main_v31 (F := Ideal) x3 x4 x5 = refArr x3 x4 x5 := by
  funext i
  have hi : i = ix2 (orow i) (col (ohead i) (olane i)) := funext fun a => Fin.ext (by
    match a with
    | ⟨0, _⟩ => rfl
    | ⟨1, _⟩ => show (i 1).val = (i 1).val / 128 * 128 + (i 1).val % 128; omega)
  exact (congrArg (val_main_v31 (F := Ideal) x3 x4 x5) hi).trans (ref_apply x3 x4 x5 (orow i) (ohead i) (olane i))

end Cert.ReferenceIdeal.Row

end
-- ==== Proof.Finite.lean ====
import proofs.«178379_j76536317215262_2_alg».proof.Pre_finite_inputs
import Idealize.ShloMosaic.Lib.ReduceAll
import Idealize.ShloMosaic.Lib.Affine
import Idealize.ShloMosaic.Lib.ValueIdx
import Idealize.ShloMosaic.PureOps.Ideal

/-!
# What the precondition says of the three arrays the result depends on

The precondition is the conjunction, over the six arguments, of "every entry has absolute value below `+∞`". On the
extended reals `|x| = max x (-x)`, and `max x (-x) < ⊤` rules out both infinities, so `x` is a real number. Read here
for the query, key and value arrays (the fourth, fifth and sixth arguments).
-/

noncomputable section

namespace Cert.Pre_finite_inputs.Finite

open Cert.Pre_finite_inputs Idealize.ShloMosaic

/-- An extended real whose absolute value is below the f32 word of `+∞` is a real. -/
theorem real_of_abs_lt_inf (x : EReal)
    (h : Ideal.cmp .olt (max x (-x)) (Ideal.ofBits .f32 0x7F800000#32) = 1#1) : ∃ r : ℝ, x = (r : EReal) := by
  have ht : Ideal.ofBits .f32 0x7F800000#32 = ⊤ := by simp [Ideal.ofBits, Ideal.ieee]
  rw [ht] at h
  induction x using EReal.rec with
  | bot => simp [Ideal.cmp] at h
  | coe r => exact ⟨r, rfl⟩
  | top => simp [Ideal.cmp] at h

instance : Subsingleton S_.Idx := ⟨fun a b => funext fun d => d.elim0⟩

variable [Facts]

/-- Under the precondition every entry of the query, key and value arrays is a real. -/
theorem real_entries (a0 : FVec Ideal S512x4096 .f32) (a1 : FVec Ideal S4096 .f32) (a2 : FVec Ideal S12288x4096 .f32)
    (a3 : FVec Ideal S32x512x128 .f32) (a4 a5 : FVec Ideal S32x4096x128 .f32)
    (h : fn (F := Ideal) a0 a1 a2 a3 a4 a5 = fun _ => 1#1) :
    (∀ i, ∃ r : ℝ, a3 i = (r : EReal)) ∧ (∀ i, ∃ r : ℝ, a4 i = (r : EReal)) ∧ (∀ i, ∃ r : ℝ, a5 i = (r : EReal)) := by
  have h0 := congrFun h ValueIdx.ix0
  dsimp only [fn, fn_part1] at h0
  obtain ⟨h01, h5⟩ := IntOp.andi_eq_one.1 h0
  obtain ⟨h02, h4⟩ := IntOp.andi_eq_one.1 h01
  obtain ⟨_, h3⟩ := IntOp.andi_eq_one.1 h02
  exact ⟨fun i => real_of_abs_lt_inf _ (Host.reduce_andi_all _ _ _ _ _ h3 i),
    fun i => real_of_abs_lt_inf _ (Host.reduce_andi_all _ _ _ _ _ h4 i),
    fun i => real_of_abs_lt_inf _ (Host.reduce_andi_all _ _ _ _ _ h5 i)⟩

end Cert.Pre_finite_inputs.Finite

end
-- ==== Proof.lean ====
/-
  Multi-head cached-KV attention, 32 heads of 512 queries against 4096 keys and values of width 128: a Pallas kernel,
  one grid point per head, against its jnp reference.

  Both compute, for head `h`, query row `r` and lane `d`, softmax attention
      out (r, h·128 + d) = ∑ p, softmax_p (s (h, r, ·)) · v (h, p, d),     s (h, r, p) = c · ∑ d', q (h, r, d') · k (h, p, d'),
  with the SAME scale word `c` (the f32 nearest `1/√128`). They differ in two arrangements. The kernel multiplies the
  query by `c` before the contraction, the reference multiplies the scores; and the kernel divides the weighted sum of
  the values by the sum `L` of the weights `e p = exp (s p - max s)`, where the reference divides every weight by `L`
  first. Read on the extended reals (a change of float format the identity, both matrix products and both lane sums the
  exact sums, both maxima the fold of `max` from `-∞`) the two are equal by distributivity — twice — and that law needs
  every number involved to be FINITE: this is where the precondition is used. With real `q`, `k`, `v` the scores are
  reals, their maximum over 4096 positions is a real, every weight is a positive real and `L` a positive real, so
  `(∑ p, e p · v p) / L = ∑ p, (e p / L) · v p`.

  The reference also normalises its first argument and multiplies it by a weight matrix; that product is not part of
  its result, and nothing here reads it.

  The modules: the two arrangements of one row and their equality on real data (AttnSpec), the same for the whole
  `512 × 4096` array (AttnArray); the kernel body's value at an index is the first arrangement (KernelRow, KernelBlock) and
  the 32 blocks the grid points write back make up the array function (Final); the reference's last stage at an index
  is the second arrangement (RefRow, RefArray); under the precondition the three arrays are arrays of reals (Finite).
  Nothing of the kernel's text is rewritten when it is read on the extended reals, so there is nothing to preserve.
-/
import proofs.«178379_j76536317215262_2_alg».proof.Defs
import proofs.«178379_j76536317215262_2_alg».proof.Proof.Gen.Kernel
import proofs.«178379_j76536317215262_2_alg».proof.Proof.Gen.Kernel.Frame
import proofs.«178379_j76536317215262_2_alg».proof.Proof.Gen.KernelIdeal
import proofs.«178379_j76536317215262_2_alg».proof.Proof.Gen.KernelIdeal.Frame
import proofs.«178379_j76536317215262_2_alg».proof.Proof.Gen.ReferenceIdeal
import proofs.«178379_j76536317215262_2_alg».proof.Proof.Gen.Pre_finite_inputs
import proofs.«178379_j76536317215262_2_alg».proof.Proof.Gen.KernelIdeal.Value
import proofs.«178379_j76536317215262_2_alg».proof.Proof.Gen.ReferenceIdeal.Run
import proofs.«178379_j76536317215262_2_alg».proof.Proof.Gen.ReferenceIdeal.Read
import proofs.«178379_j76536317215262_2_alg».proof.Proof.Final
import proofs.«178379_j76536317215262_2_alg».proof.Proof.RefArray
import proofs.«178379_j76536317215262_2_alg».proof.Proof.Finite
import Idealize.ShloMosaic.Adequacy
import Idealize.ShloMosaic.Init

noncomputable section

namespace Cert.Proof

open Idealize.ShloMosaic Idealize.ShloMosaic.TcCoe Idealize.SL.Sem

/-- The word-level kernel runs and leaves its arguments as they were. -/
theorem frame_k : Cert.frame_Kernel := fun m ρ _ => Cert.Kernel.Gen.frame m ρ

/-- So does the kernel read on the extended reals. -/
theorem frame_ki : Cert.frame_KernelIdeal := fun m ρ _ => Cert.KernelIdeal.Gen.frame m ρ

/-- The reference is a straight line of host operations: its run, with the result forgotten. -/
theorem frame_ri : Cert.frame_ReferenceIdeal := fun m ρ _ =>
  (θ_run Cert.ReferenceIdeal.defs _ _).mono (fun _ h c => (h c).2) (Cert.ReferenceIdeal.Value.run (F := Ideal) m ρ)

/-- Nothing was rewritten on the way to the extended reals. -/
theorem preserves : Cert.preserves_Kernel_KernelIdeal := trivial

/-- From memories that agree on the arguments, both runs end with the result at one array: the kernel's at the
    attention function normalised after the weighted sum, the reference's at the one normalised before it, and under
    the precondition (real queries, keys and values) these are one function. -/
theorem algebraic : Cert.algebraic_KernelIdeal_ReferenceIdeal := by
  intro m ρ m' ρ' hpre hagree
  refine ⟨_, Cert.KernelIdeal.Final.run m ρ, ?_⟩
  refine (θ_run Cert.ReferenceIdeal.defs _ _).mono (fun _ h c => ⟨(h c).1.trans ?_, (h c).2⟩)
    (Cert.ReferenceIdeal.Value.run (F := Ideal) m' ρ')
  obtain ⟨h3, h4, h5⟩ := Cert.Pre_finite_inputs.Finite.real_entries _ _ _ _ _ _ (hpre c)
  rw [Cert.ReferenceIdeal.Read.val_main_v31_eq, Cert.ReferenceIdeal.Row.ref_eq,
    (hagree c).2.2.2.1, (hagree c).2.2.2.2.1, (hagree c).2.2.2.2.2]
  exact (Cert.Attn.attnArr_eq_refArr _ _ _ h3 h4 h5).symm

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
